-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512 : Shape := ⟨2, ![4096, 512]⟩
abbrev S512x512 : Shape := ⟨2, ![512, 512]⟩
abbrev S512x4096 : Shape := ⟨2, ![512, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x512 : S_.BroadcastsInDim S512x512 (![] : Fin 0 → Fin S512x512.rank)
  reducesTo_S512x512_S_d0_1 : S512x512.ReducesTo [0, 1] S_
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x512 .f32) (main_arg2 : FVec F S512x512 .f32) (main_arg3 : FVec F S512x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_v13 main_v16
-- ==== Kernel.lean ====
abbrev S4x2048x4096 : Shape := ⟨3, ![4, 2048, 4096]⟩
abbrev S4096x512 : Shape := ⟨2, ![4096, 512]⟩
abbrev S512x512 : Shape := ⟨2, ![512, 512]⟩
abbrev S512x4096 : Shape := ⟨2, ![512, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256x512 : Shape := ⟨2, ![256, 512]⟩

abbrev nBuf : Space → Nat
  | .hbm => 12
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .f32⟩
  | .hbm, ⟨2, _⟩ => ⟨S512x512, .f32⟩
  | .hbm, ⟨3, _⟩ => ⟨S512x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S4096x512, .f32⟩
  | .hbm, ⟨8, _⟩ => ⟨S4096x512, .bf16⟩
  | .hbm, ⟨9, _⟩ => ⟨S512x4096, .bf16⟩
  | .hbm, ⟨10, _⟩ => ⟨S8192x4096, .f32⟩
  | .hbm, ⟨11, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x512, .bf16⟩
  | .local _ .vmem, ⟨3, _⟩ => ⟨S512x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  shapeCasts_S4096_S1x4096 : S4096.ShapeCasts S1x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S4096x512_S512x512_S4096x512_1_0_0_1_n_n_wf : DotDims.WF S4096x512 S512x512 S4096x512 [1] [0] [0] [1] [] []
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x512 : Shape := ⟨2, ![4096, 512]⟩
abbrev S512x512 : Shape := ⟨2, ![512, 512]⟩
abbrev S512x4096 : Shape := ⟨2, ![512, 4096]⟩
abbrev S4096 : Shape := ⟨1, ![4096]⟩
abbrev S8192x4096 : Shape := ⟨2, ![8192, 4096]⟩
abbrev S8192x512 : Shape := ⟨2, ![8192, 512]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .f32⟩
  | .hbm, ⟨2, _⟩ => ⟨S512x512, .f32⟩
  | .hbm, ⟨3, _⟩ => ⟨S512x4096, .f32⟩
  | .hbm, ⟨4, _⟩ => ⟨S4096, .f32⟩
  | .hbm, ⟨5, _⟩ => ⟨S8192x4096, .f32⟩
  | .hbm, ⟨6, _⟩ => ⟨S8192x512, .f32⟩
  | .hbm, ⟨7, _⟩ => ⟨S8192x512, .f32⟩
  | .hbm, ⟨8, _⟩ => ⟨S8192x4096, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S4x2048x4096 : S8192x4096.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S8192x4096_S4096x512_S8192x512_1_0_0_1_n_n_wf : DotDims.WF S8192x4096 S4096x512 S8192x512 [1] [0] [0] [1] [] []
  dot_S8192x512_S512x512_S8192x512_1_0_0_1_n_n_wf : DotDims.WF S8192x512 S512x512 S8192x512 [1] [0] [0] [1] [] []
  dot_S8192x512_S512x4096_S8192x4096_1_0_0_1_n_n_wf : DotDims.WF S8192x512 S512x4096 S8192x4096 [1] [0] [0] [1] [] []

variable [Facts₀]

def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf

class Facts : Prop extends Facts₀ where

variable [Facts]
-- ==== Proof.LibMatChain.lean ====
/-
  General lemmas: products of matrices over the extended reals, and when they associate.

  On the extended reals a product does not distribute over a sum once an infinity is among the terms, so a chain of
  matrix products cannot be regrouped in general. It can when every entry is a real number: then each sum and each
  product is the coercion of the same expression over the reals, where the finite sums commute.

  * `IsReal`: an extended real that is the coercion of a real; `isReal_of_abs_lt_top`: one whose absolute value
    max x (-x) lies strictly below +∞ is such;
  * `coe_sum`: the coercion of a finite sum of reals is the sum of the coercions;
  * `sum_mul_sum_assoc`: for real families, Σ_k x k · (Σ_l A k l · B l) = Σ_l (Σ_k x k · A k l) · B l;
  * `matProd`: the product of an [a, k] by a [k, n] array as an [a, n] array, entry (p, j) the sum over q of
    x (p, q) · w (q, j); `matProd_assoc`: x · (A · B) = (x · A) · B when all three hold reals only;
  * `matProd_congr`: entry (p, j) reads only row p of the left factor and column j of the right one.
  Nothing here mentions a program: the extents are variables.
-/
import Idealize.ShloMosaic.Lib.ValueIdx
import Idealize.ShloMosaic.PureOps.Ideal.Laws

noncomputable section

namespace Cert.LibMatChain

open Idealize.ShloMosaic Idealize.ShloMosaic.ValueIdx

/-- An extended real that is a real number. -/
def IsReal (x : EReal) : Prop := ∃ r : ℝ, x = (r : EReal)

/-- An extended real whose absolute value, max x (-x), is strictly below +∞ is a real number: at either infinity the
    maximum is +∞. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite sum of reals is the sum of the coercions. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- For families of reals, a vector times the column j of a product A · B is the vector times A, times that column of
    B: both are the double sum over (k, l) of x k · A k l · B l, taken over the reals. -/
theorem sum_mul_sum_assoc {κ ι : Type*} [Fintype κ] [Fintype ι] (x : κ → EReal) (A : κ → ι → EReal) (B : ι → EReal)
    (hx : ∀ k, IsReal (x k)) (hA : ∀ k l, IsReal (A k l)) (hB : ∀ l, IsReal (B l)) :
    ∑ k, x k * ∑ l, A k l * B l = ∑ l, (∑ k, x k * A k l) * B l := by
  choose x' hx' using hx
  choose A' hA' using hA
  choose B' hB' using hB
  simp only [hx', hA', hB', ← EReal.coe_mul, ← coe_sum]
  refine congrArg _ ?_
  simp only [Finset.mul_sum, Finset.sum_mul]
  rw [Finset.sum_comm]
  exact Finset.sum_congr rfl fun l _ => Finset.sum_congr rfl fun k _ => (mul_assoc _ _ _).symm

variable {a k l n : ℕ}

/-- The product of an [a, k] by a [k, n] array: entry (p, j) is the sum over q of x (p, q) · w (q, j). -/
def matProd (x : (⟨2, ![a, k]⟩ : Shape).Idx → EReal) (w : (⟨2, ![k, n]⟩ : Shape).Idx → EReal) :
    (⟨2, ![a, n]⟩ : Shape).Idx → EReal :=
  fun i => ∑ q : Fin k, x (ix2 (i 0) q) * w (ix2 q (i 1))

theorem matProd_ix2 (x : (⟨2, ![a, k]⟩ : Shape).Idx → EReal) (w : (⟨2, ![k, n]⟩ : Shape).Idx → EReal) (p : Fin a) (j : Fin n) :
    matProd x w (ix2 p j) = ∑ q : Fin k, x (ix2 p q) * w (ix2 q j) := rfl

/-- Entry (p, j) of a product reads only row p of the left factor and column j of the right one. -/
theorem matProd_congr {a' : ℕ} (X : (⟨2, ![a, k]⟩ : Shape).Idx → EReal) (W : (⟨2, ![k, n]⟩ : Shape).Idx → EReal)
    (x : (⟨2, ![a', k]⟩ : Shape).Idx → EReal) (w : (⟨2, ![k, n]⟩ : Shape).Idx → EReal) (p : Fin a') (p' : Fin a) (j : Fin n)
    (hx : ∀ q : Fin k, x (ix2 p q) = X (ix2 p' q)) (hw : ∀ q : Fin k, w (ix2 q j) = W (ix2 q j)) :
    matProd x w (ix2 p j) = matProd X W (ix2 p' j) := by
  rw [matProd_ix2, matProd_ix2]
  exact Finset.sum_congr rfl fun q _ => by rw [hx q, hw q]

/-- Three arrays of reals: x · (A · B) = (x · A) · B. -/
theorem matProd_assoc (x : (⟨2, ![a, k]⟩ : Shape).Idx → EReal) (A : (⟨2, ![k, l]⟩ : Shape).Idx → EReal)
    (B : (⟨2, ![l, n]⟩ : Shape).Idx → EReal) (hx : ∀ i, IsReal (x i)) (hA : ∀ i, IsReal (A i)) (hB : ∀ i, IsReal (B i)) :
    matProd x (matProd A B) = matProd (matProd x A) B := by
  funext i
  obtain ⟨p, j, rfl⟩ : ∃ (p : Fin a) (j : Fin n), i = ix2 p j := ⟨i 0, i 1, eq_ix2 i⟩
  rw [matProd_ix2, matProd_ix2]
  simp only [matProd_ix2]
  exact sum_mul_sum_assoc (fun q => x (ix2 p q)) (fun q r => A (ix2 q r)) (fun r => B (ix2 r j))
    (fun q => hx _) (fun q r => hA _) (fun r => hB _)

end Cert.LibMatChain

end
-- ==== Proof.Spec.lean ====
/-
  The result both programs compute, as one function of the five argument arrays, index by index, on the extended reals.

  With x of shape [4, 2048, 4096] flattened to the [8192, 4096] matrix X (row 2048·b + s holds x (b, s, ·)), weights
  t0 [4096, 512], t1 [512, 512], t2 [512, 4096] and a bias of 4096 entries, entry (b, s, n) of the result is

      ((X · t0) · t1) · t2  at (2048·b + s, n),  plus bias n          (`chained`: the products taken left to right)

  or, with the two first weights multiplied together beforehand,

      (X · (t0 · t1)) · t2  at (2048·b + s, n),  plus bias n          (`folded`).

  The two agree when x, t0 and t1 hold real numbers only (`folded_eq_chained`): X · (t0 · t1) = (X · t0) · t1 is the
  associativity of matrix products, which on the extended reals needs every entry finite. The last weight and the bias
  enter both sides in the same way, so nothing is asked of them.
-/
import proofs.«169560_j33200097198471_2_alg».proof.Proof.LibMatChain

noncomputable section

namespace Cert.Spec

open Idealize.ShloMosaic Idealize.ShloMosaic.ValueIdx Cert.LibMatChain

/-- The input as a matrix of 8192 rows: row r holds x (r / 2048, r % 2048, ·). -/
def flat (x : (⟨3, ![4, 2048, 4096]⟩ : Shape).Idx → EReal) : (⟨2, ![8192, 4096]⟩ : Shape).Idx → EReal :=
  fun r => x (ix3 (⟨(r 0).val / 2048, by have h := idx2_lt0 r; omega⟩ : Fin 4) (⟨(r 0).val % 2048, by omega⟩ : Fin 2048) (r 1))

/-- The row of the flattened input that entry (b, s, ·) of the result reads: 2048·b + s. -/
def rowOf (i : (⟨3, ![4, 2048, 4096]⟩ : Shape).Idx) : Fin 8192 :=
  ⟨(i 0).val * 2048 + (i 1).val, by
    have h0 : (i 0).val < 4 := (i 0).isLt
    have h1 : (i 1).val < 2048 := (i 1).isLt
    omega⟩

/-- The three products taken left to right, plus the bias. -/
def chained (x : (⟨3, ![4, 2048, 4096]⟩ : Shape).Idx → EReal) (t0 : (⟨2, ![4096, 512]⟩ : Shape).Idx → EReal)
    (t1 : (⟨2, ![512, 512]⟩ : Shape).Idx → EReal) (t2 : (⟨2, ![512, 4096]⟩ : Shape).Idx → EReal)
    (bias : (⟨1, ![4096]⟩ : Shape).Idx → EReal) : (⟨3, ![4, 2048, 4096]⟩ : Shape).Idx → EReal :=
  fun i => matProd (matProd (matProd (flat x) t0) t1) t2 (ix2 (rowOf i) (i 2)) + bias (ix1 (i 2))

/-- The two first weights multiplied beforehand, then the two remaining products, plus the bias. -/
def folded (x : (⟨3, ![4, 2048, 4096]⟩ : Shape).Idx → EReal) (t0 : (⟨2, ![4096, 512]⟩ : Shape).Idx → EReal)
    (t1 : (⟨2, ![512, 512]⟩ : Shape).Idx → EReal) (t2 : (⟨2, ![512, 4096]⟩ : Shape).Idx → EReal)
    (bias : (⟨1, ![4096]⟩ : Shape).Idx → EReal) : (⟨3, ![4, 2048, 4096]⟩ : Shape).Idx → EReal :=
  fun i => matProd (matProd (flat x) (matProd t0 t1)) t2 (ix2 (rowOf i) (i 2)) + bias (ix1 (i 2))

/-- On real inputs the two groupings agree: matrix products associate. -/
theorem folded_eq_chained (x : (⟨3, ![4, 2048, 4096]⟩ : Shape).Idx → EReal) (t0 : (⟨2, ![4096, 512]⟩ : Shape).Idx → EReal)
    (t1 : (⟨2, ![512, 512]⟩ : Shape).Idx → EReal) (t2 : (⟨2, ![512, 4096]⟩ : Shape).Idx → EReal)
    (bias : (⟨1, ![4096]⟩ : Shape).Idx → EReal)
    (hx : ∀ i, IsReal (x i)) (h0 : ∀ i, IsReal (t0 i)) (h1 : ∀ i, IsReal (t1 i)) :
    folded x t0 t1 t2 bias = chained x t0 t1 t2 bias := by
  unfold folded chained
  rw [matProd_assoc (flat x) t0 t1 (fun i => hx _) h0 h1]

end Cert.Spec

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.RefValue.lean ====
/-
  The reference computes `Spec.chained`.

  Its program flattens the input to [8192, 4096], takes the three products one after the other (each of the host's
  plain products is, at an entry, the sum of products over the contracted axis), reshapes the [8192, 4096] result back
  to [4, 2048, 4096] and adds the bias laid along the two leading axes. Read at an index (b, s, n): the reshape reads
  row 2048·b + s, column n, and the broadcast bias reads entry n.
-/
import proofs.«169560_j33200097198471_2_alg».proof.Proof.Gen.ReferenceIdeal.Read
import proofs.«169560_j33200097198471_2_alg».proof.Proof.LibAffine
import proofs.«169560_j33200097198471_2_alg».proof.Proof.Spec

noncomputable section

namespace Cert.ReferenceIdeal.RefValue

open Cert.ReferenceIdeal Cert.ReferenceIdeal.Read Idealize.ShloMosaic Idealize.ShloMosaic.ValueIdx
open Cert.LibAffine Cert.LibMatChain

/-- The host's reshape of the input is the flattened matrix: row r, column k reads x (r / 2048, r % 2048, k). -/
theorem flat_eq (x0 : (⟨S4x2048x4096, .f32⟩ : BufTy).Contents (Elt Ideal)) :
    val_main_v0 (F := Ideal) x0 = Spec.flat x0 := by
  funext r
  rw [val_main_v0_apply]
  unfold Spec.flat
  refine congrArg x0 (funext fun a => Fin.ext ?_)
  have h0 : (r 0).val < 8192 := (r 0).isLt
  have h1 : (r 1).val < 4096 := (r 1).isLt
  match a with
  | ⟨0, _⟩ => show ((r 0).val * 4096 + (r 1).val) / 8388608 = (r 0).val / 2048; omega
  | ⟨1, _⟩ => show ((r 0).val * 4096 + (r 1).val) / 4096 % 2048 = (r 0).val % 2048; omega
  | ⟨2, _⟩ => show ((r 0).val * 4096 + (r 1).val) % 4096 = (r 1).val; omega

/-- The first product: the flattened input by t0. -/
theorem prod1_eq (x0 : (⟨S4x2048x4096, .f32⟩ : BufTy).Contents (Elt Ideal)) (x1 : (⟨S4096x512, .f32⟩ : BufTy).Contents (Elt Ideal)) :
    val_main_v1 (F := Ideal) x0 x1 = matProd (Spec.flat x0) x1 := by
  funext i
  obtain ⟨p, j, rfl⟩ : ∃ (p : Fin 8192) (j : Fin 512), i = ix2 p j := ⟨i 0, i 1, eq_ix2 i⟩
  unfold val_main_v1
  rw [flat_eq]
  exact hostDot_ix2 (φ₁ := .f32) (φ₂ := .f32) dot_S8192x4096_S4096x512_S8192x512_1_0_0_1_n_n rfl rfl lhs_main_v1_0 lhs_main_v1_1 rhs_main_v1_0 rhs_main_v1_1 none _ _ p j

/-- The second product: by t1. -/
theorem prod2_eq (x0 : (⟨S4x2048x4096, .f32⟩ : BufTy).Contents (Elt Ideal)) (x1 : (⟨S4096x512, .f32⟩ : BufTy).Contents (Elt Ideal))
    (x2 : (⟨S512x512, .f32⟩ : BufTy).Contents (Elt Ideal)) :
    val_main_v2 (F := Ideal) x0 x1 x2 = matProd (matProd (Spec.flat x0) x1) x2 := by
  funext i
  obtain ⟨p, j, rfl⟩ : ∃ (p : Fin 8192) (j : Fin 512), i = ix2 p j := ⟨i 0, i 1, eq_ix2 i⟩
  unfold val_main_v2
  rw [prod1_eq]
  exact hostDot_ix2 (φ₁ := .f32) (φ₂ := .f32) dot_S8192x512_S512x512_S8192x512_1_0_0_1_n_n rfl rfl lhs_main_v2_0 lhs_main_v2_1 rhs_main_v2_0 rhs_main_v2_1 none _ _ p j

/-- The third product: by t2. -/
theorem prod3_eq (x0 : (⟨S4x2048x4096, .f32⟩ : BufTy).Contents (Elt Ideal)) (x1 : (⟨S4096x512, .f32⟩ : BufTy).Contents (Elt Ideal))
    (x2 : (⟨S512x512, .f32⟩ : BufTy).Contents (Elt Ideal)) (x3 : (⟨S512x4096, .f32⟩ : BufTy).Contents (Elt Ideal)) :
    val_main_v3 (F := Ideal) x0 x1 x2 x3 = matProd (matProd (matProd (Spec.flat x0) x1) x2) x3 := by
  funext i
  obtain ⟨p, j, rfl⟩ : ∃ (p : Fin 8192) (j : Fin 4096), i = ix2 p j := ⟨i 0, i 1, eq_ix2 i⟩
  unfold val_main_v3
  rw [prod2_eq]
  exact hostDot_ix2 (φ₁ := .f32) (φ₂ := .f32) dot_S8192x512_S512x4096_S8192x4096_1_0_0_1_n_n rfl rfl lhs_main_v3_0 lhs_main_v3_1 rhs_main_v3_0 rhs_main_v3_1 none _ _ p j

/-- The reference's result is the chain of the three products plus the bias. -/
theorem result_eq (x0 : (⟨S4x2048x4096, .f32⟩ : BufTy).Contents (Elt Ideal)) (x1 : (⟨S4096x512, .f32⟩ : BufTy).Contents (Elt Ideal))
    (x2 : (⟨S512x512, .f32⟩ : BufTy).Contents (Elt Ideal)) (x3 : (⟨S512x4096, .f32⟩ : BufTy).Contents (Elt Ideal))
    (x4 : (⟨S4096, .f32⟩ : BufTy).Contents (Elt Ideal)) :
    val_main_v7 (F := Ideal) x0 x1 x2 x3 x4 = Spec.chained x0 x1 x2 x3 x4 := by
  funext i
  rw [val_main_v7_apply, val_main_v4_apply, val_main_v6_apply, val_main_v5_apply, prod3_eq]
  unfold Spec.chained
  have h0 : (i 0).val < 4 := (i 0).isLt
  have h1 : (i 1).val < 2048 := (i 1).isLt
  have h2 : (i 2).val < 4096 := (i 2).isLt
  have e1 : idx_main_v4 i = ix2 (Spec.rowOf i) (i 2) := funext fun a => Fin.ext (by
    match a with
    | ⟨0, _⟩ => show (((i 0).val * 2048 + (i 1).val) * 4096 + (i 2).val) / 4096 = (i 0).val * 2048 + (i 1).val; omega
    | ⟨1, _⟩ => show (((i 0).val * 2048 + (i 1).val) * 4096 + (i 2).val) % 4096 = (i 2).val; omega)
  have e2 : idx_main_v5 (idx_main_v6 i) = ix1 (i 2) := funext fun a => Fin.ext (by
    match a with
    | ⟨0, _⟩ => rfl)
  rw [e1, e2]
  rfl

end Cert.ReferenceIdeal.RefValue

end
-- ==== Proof.KernelBlock.lean ====
/-
  One block of the kernel's result, as a function of the blocks its body loads.

  At a grid point the body loads a block x of 256 rows of the flattened input ([256, 4096]), the whole folded weight
  w ([4096, 512]), the whole last weight t ([512, 4096]) and the bias row b ([1, 4096]), and stores

      (x · w) · t + b     (the bias row laid along every one of the 256 rows).

  Read on the extended reals the changes of float format are the identity, a matrix-unit product into a zero
  accumulator is the plain sum of products over the contracted axis, and the same-shape casts do nothing; so the stored
  block is the dense layer of the general lemmas applied to the product x · w.
-/
import proofs.«169560_j33200097198471_2_alg».proof.Proof.Gen.KernelIdeal.Skeleton
import proofs.«169560_j33200097198471_2_alg».proof.Proof.LibAffine
import proofs.«169560_j33200097198471_2_alg».proof.Proof.LibMatChain
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.LibAffine Cert.LibMatChain

/-- The first product's dimensions: [256, 4096] by [4096, 512], columns against rows. -/
abbrev D1 : DotDims S256x4096 S4096x512 S256x512 := dot_S256x4096_S4096x512_S256x512_1_0_0_1_n_n
/-- The second product's dimensions: [256, 512] by [512, 4096], columns against rows. -/
abbrev D2 : DotDims S256x512 S512x4096 S256x4096 := dot_S256x512_S512x4096_S256x4096_1_0_0_1_n_n

theorem D1_l0 (i : S256x512.Idx) (q : D1.contr.Idx) : (D1.lhsIdx i q 0).val = (i 0).val := by
  unfold DotDims.lhsIdx
  rw [dif_neg (show ¬(0 : Fin S256x4096.rank) ∈ D1.lhsBatch by decide), dif_pos (show (0 : Fin S256x4096.rank) ∈ D1.lhsNonContracting by decide)]
  rfl
theorem D1_l1 (i : S256x512.Idx) (q : D1.contr.Idx) : (D1.lhsIdx i q 1).val = (q ⟨0, by decide⟩).val :=
  D1.lhsIdx_val_of_single rfl i q
theorem D1_r0 (i : S256x512.Idx) (q : D1.contr.Idx) : (D1.rhsIdx i q 0).val = (q ⟨0, by decide⟩).val :=
  D1.rhsIdx_val_of_single rfl i q
theorem D1_r1 (i : S256x512.Idx) (q : D1.contr.Idx) : (D1.rhsIdx i q 1).val = (i 1).val := by
  unfold DotDims.rhsIdx
  rw [dif_neg (show ¬(1 : Fin S4096x512.rank) ∈ D1.rhsBatch by decide), dif_pos (show (1 : Fin S4096x512.rank) ∈ D1.rhsNonContracting by decide)]
  rfl

theorem D2_l0 (i : S256x4096.Idx) (q : D2.contr.Idx) : (D2.lhsIdx i q 0).val = (i 0).val := by
  unfold DotDims.lhsIdx
  rw [dif_neg (show ¬(0 : Fin S256x512.rank) ∈ D2.lhsBatch by decide), dif_pos (show (0 : Fin S256x512.rank) ∈ D2.lhsNonContracting by decide)]
  rfl
theorem D2_l1 (i : S256x4096.Idx) (q : D2.contr.Idx) : (D2.lhsIdx i q 1).val = (q ⟨0, by decide⟩).val :=
  D2.lhsIdx_val_of_single rfl i q
theorem D2_r0 (i : S256x4096.Idx) (q : D2.contr.Idx) : (D2.rhsIdx i q 0).val = (q ⟨0, by decide⟩).val :=
  D2.rhsIdx_val_of_single rfl i q
theorem D2_r1 (i : S256x4096.Idx) (q : D2.contr.Idx) : (D2.rhsIdx i q 1).val = (i 1).val := by
  unfold DotDims.rhsIdx
  rw [dif_neg (show ¬(1 : Fin S512x4096.rank) ∈ D2.rhsBatch by decide), dif_pos (show (1 : Fin S512x4096.rank) ∈ D2.rhsNonContracting by decide)]
  rfl

/-- The stored block is (x · w) · t + b: the dense layer on the product of the loaded block by the folded weight. -/
theorem pay_eq (x : Vec Ideal S256x4096 .f32) (w : Vec Ideal S4096x512 .bf16) (t : Vec Ideal S512x4096 .bf16)
    (b : Vec Ideal S1x4096 .f32) :
    k0_pay1 (F := Ideal) x w t b = affine (matProd x w) t b := by
  funext i
  obtain ⟨p, j, rfl⟩ : ∃ (p : Fin 256) (j : Fin 4096), i = ix2 p j := ⟨i 0, i 1, eq_ix2 i⟩
  unfold k0_pay1
  simp only [shapeCast_self]
  refine (addf_apply _ _ _).trans ?_
  rw [affine_ix2]
  unfold affineAt
  refine congrArg₂ (· + ·) ?_ (broadcastTo_1b_ab_apply _ _ p j)
  refine (coreDot_ix2 (φ₁ := .bf16) (φ₂ := .bf16) D2 rfl rfl D2_l0 D2_l1 D2_r0 D2_r1 none _ _ p j).trans ?_
  refine Finset.sum_congr rfl fun q _ => congrArg (· * t (ix2 q j)) ?_
  exact coreDot_ix2 (φ₁ := .bf16) (φ₂ := .bf16) D1 rfl rfl D1_l0 D1_l1 D1_r0 D1_r1 none _ _ p q

/-- The folded weight's dimensions on the host: [4096, 512] by [512, 512], columns against rows. -/
abbrev D0 : DotDims S4096x512 S512x512 S4096x512 := dot_S4096x512_S512x512_S4096x512_1_0_0_1_n_n

theorem D0_l0 (i : S4096x512.Idx) (q : D0.contr.Idx) : (D0.lhsIdx i q 0).val = (i 0).val := by
  unfold DotDims.lhsIdx
  rw [dif_neg (show ¬(0 : Fin S4096x512.rank) ∈ D0.lhsBatch by decide), dif_pos (show (0 : Fin S4096x512.rank) ∈ D0.lhsNonContracting by decide)]
  rfl
theorem D0_l1 (i : S4096x512.Idx) (q : D0.contr.Idx) : (D0.lhsIdx i q 1).val = (q ⟨0, by decide⟩).val :=
  D0.lhsIdx_val_of_single rfl i q
theorem D0_r0 (i : S4096x512.Idx) (q : D0.contr.Idx) : (D0.rhsIdx i q 0).val = (q ⟨0, by decide⟩).val :=
  D0.rhsIdx_val_of_single rfl i q
theorem D0_r1 (i : S4096x512.Idx) (q : D0.contr.Idx) : (D0.rhsIdx i q 1).val = (i 1).val := by
  unfold DotDims.rhsIdx
  rw [dif_neg (show ¬(1 : Fin S512x512.rank) ∈ D0.rhsBatch by decide), dif_pos (show (1 : Fin S512x512.rank) ∈ D0.rhsNonContracting by decide)]
  rfl

/-- The weight the host folds before the launch, t0 · t1, rounded to the narrower format (the identity here). -/
theorem foldedWeight_eq (t0 : FVec Ideal S4096x512 .f32) (t1 : FVec Ideal S512x512 .f32) :
    (truncf .bf16 (Host.dotGeneral D0 none t0 t1) bitsLt_bf16_f32 : FVec Ideal S4096x512 .bf16) = matProd t0 t1 := by
  funext i
  obtain ⟨p, j, rfl⟩ : ∃ (p : Fin 4096) (j : Fin 512), i = ix2 p j := ⟨i 0, i 1, eq_ix2 i⟩
  exact hostDot_ix2 (φ₁ := .f32) (φ₂ := .f32) D0 rfl rfl D0_l0 D0_l1 D0_r0 D0_r1 none t0 t1 p j

/-- The whole [8192, 4096] array the launch leaves, as a function of the four arrays it stages: the flattened input
    X, the folded weight W, the last weight T and the bias row B: (X · W) · T + B. -/
def outArr (X : S8192x4096.Idx → EReal) (W : S4096x512.Idx → EReal) (T : S512x4096.Idx → EReal) (B : S1x4096.Idx → EReal) :
    S8192x4096.Idx → EReal :=
  affine (matProd X W) T B

/-- A block of 256 rows of that array is the stored block of the 256 rows of X: entry (p, j) of the block reads row p
    of the loaded rows, which is row p' of X, and the weights and the bias whole. -/
theorem block_eq (X : S8192x4096.Idx → EReal) (W : S4096x512.Idx → EReal) (T : S512x4096.Idx → EReal) (B : S1x4096.Idx → EReal)
    (x : Vec Ideal S256x4096 .f32) (w : Vec Ideal S4096x512 .bf16) (t : Vec Ideal S512x4096 .bf16) (b : Vec Ideal S1x4096 .f32)
    (y : S256x4096.Idx) (i : S8192x4096.Idx) (hi : (i 1).val = (y 1).val)
    (hx : ∀ q : Fin 4096, x (ix2 (y 0) q) = X (ix2 (i 0) q)) (hw : ∀ z, w z = W z) (ht : ∀ z, t z = T z) (hb : ∀ z, b z = B z) :
    k0_pay1 (F := Ideal) x w t b y = outArr X W T B i := by
  rw [pay_eq]
  unfold outArr
  obtain ⟨p, j, rfl⟩ : ∃ (p : Fin 256) (j : Fin 4096), y = ix2 p j := ⟨y 0, y 1, eq_ix2 y⟩
  obtain ⟨p', j', rfl⟩ : ∃ (p' : Fin 8192) (j' : Fin 4096), i = ix2 p' j' := ⟨i 0, i 1, eq_ix2 i⟩
  obtain rfl : j' = j := Fin.ext hi
  rw [affine_ix2, affine_ix2]
  exact affineAt_congr (matProd X W) T B (matProd x w) t b p p' j'
    (fun q => matProd_congr X W x w p p' q hx (fun r => hw _)) (fun q => ht _) (hb _)

end Cert.KernelIdeal.Block

end
-- ==== Proof.Layout.lean ====
/-
  The three reshapes both programs use, read at an index.

  A [4, 2048, 4096] array flattened to [8192, 4096] is `Spec.flat` of it (row r holds entries (r / 2048, r % 2048, ·));
  an [8192, 4096] array viewed as [4, 2048, 4096] reads, at (b, s, n), row 2048·b + s and column n; a vector of 4096
  entries viewed as a [1, 4096] row reads, at (0, n), its entry n. All three keep the row-major position.
-/
import proofs.«169560_j33200097198471_2_alg».proof.Proof.Spec
import Idealize.ShloMosaic.Lib.Pipeline.Value

noncomputable section

namespace Cert.Layout

open Idealize.ShloMosaic Idealize.ShloMosaic.ValueIdx

theorem shapeCast_flat (x : (⟨3, ![4, 2048, 4096]⟩ : Shape).Idx → EReal)
    (h : (⟨3, ![4, 2048, 4096]⟩ : Shape).ShapeCasts ⟨2, ![8192, 4096]⟩) :
    shapeCast ⟨2, ![8192, 4096]⟩ x h = Spec.flat x := by
  funext r
  unfold Spec.flat
  have h0 : (r 0).val < 8192 := (r 0).isLt
  have h1 : (r 1).val < 4096 := (r 1).isLt
  refine shapeCast_apply x h r _ ?_
  rewrite [Shape.rowMajor_val_three, Shape.rowMajor_val_two]
  show ((r 0).val / 2048 * 2048 + (r 0).val % 2048) * 4096 + (r 1).val = (r 0).val * 4096 + (r 1).val
  omega

theorem shapeCast_unflat (y : (⟨2, ![8192, 4096]⟩ : Shape).Idx → EReal)
    (h : (⟨2, ![8192, 4096]⟩ : Shape).ShapeCasts ⟨3, ![4, 2048, 4096]⟩) (i : (⟨3, ![4, 2048, 4096]⟩ : Shape).Idx) :
    shapeCast ⟨3, ![4, 2048, 4096]⟩ y h i = y (ix2 (Spec.rowOf i) (i 2)) := by
  refine shapeCast_apply y h i _ ?_
  rewrite [Shape.rowMajor_val_two, Shape.rowMajor_val_three]
  rfl

theorem shapeCast_row (b : (⟨1, ![4096]⟩ : Shape).Idx → EReal)
    (h : (⟨1, ![4096]⟩ : Shape).ShapeCasts ⟨2, ![1, 4096]⟩) (z : (⟨2, ![1, 4096]⟩ : Shape).Idx) :
    shapeCast ⟨2, ![1, 4096]⟩ b h z = b (ix1 (z 1)) := by
  have h0 : (z 0).val < 1 := (z 0).isLt
  refine shapeCast_apply b h z _ ?_
  rewrite [Shape.rowMajor_val_one, Shape.rowMajor_val_two]
  show (z 1).val = (z 0).val * 4096 + (z 1).val
  omega

end Cert.Layout

end
-- ==== Proof.KernelValue.lean ====
/-
  The kernel's result array after the run is `Spec.folded` of the arguments.

  Before the launch the host flattens the input, views the bias as a row, multiplies the two first weights together
  and narrows that product and the last weight (the narrowing is the identity on the extended reals). The launch has
  32 grid points; point t loads rows 256·t … 256·t + 255 of the flattened input and the three other arrays whole, and
  writes back rows 256·t … 256·t + 255 of the [8192, 4096] result. Those 32 blocks tile the result, and each is the
  block of one whole-array function (`Block.outArr`), so the array ends holding that function; the host then views it
  as [4, 2048, 4096].
-/
import proofs.«169560_j33200097198471_2_alg».proof.Proof.Gen.KernelIdeal.Frame
import proofs.«169560_j33200097198471_2_alg».proof.Proof.KernelBlock
import proofs.«169560_j33200097198471_2_alg».proof.Proof.Layout
import proofs.«169560_j33200097198471_2_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.LibAffine Cert.LibMatChain

variable (m : (ℓ : Loc nD τ sig) → Buf (Elt Ideal) ℓ) (ρ : Dev nD → PrngReg)

theorem hz : (![0, 0] : Fin 2 → Nat) = fun _ => 0 := funext fun a => by fin_cases a <;> rfl

/-! ## The four arrays the launch stages, as the host leaves them -/

theorem V_v0 (c : Dev nD) : (V m c main_v0 : S8192x4096.Idx → EReal) = Spec.flat (m ((c : Thread nD τ).loc main_arg0)) := by
  have e : (V m c main_v0 : S8192x4096.Idx → EReal)
      = shapeCast S8192x4096 (m ((c : Thread nD τ).loc main_arg0)) shapeCasts_S4x2048x4096_S8192x4096 := by
    show StableHlo.after hostOps0 (fun b => m (c, b)) (Proc.devRef .tc main_v0) = _
    after_results <;> rfl
  rw [e]
  exact Layout.shapeCast_flat _ _

theorem V_v1 (c : Dev nD) (z : S1x4096.Idx) :
    (V m c main_v1 : S1x4096.Idx → EReal) z = (m ((c : Thread nD τ).loc main_arg4) : S4096.Idx → EReal) (ix1 (z 1)) := by
  have e : (V m c main_v1 : S1x4096.Idx → EReal)
      = shapeCast S1x4096 (m ((c : Thread nD τ).loc main_arg4)) shapeCasts_S4096_S1x4096 := by
    show StableHlo.after hostOps0 (fun b => m (c, b)) (Proc.devRef .tc main_v1) = _
    after_results <;> rfl
  rw [e]
  exact Layout.shapeCast_row _ _ z

theorem V_v3 (c : Dev nD) : (V m c main_v3 : S4096x512.Idx → EReal)
    = matProd (m ((c : Thread nD τ).loc main_arg1)) (m ((c : Thread nD τ).loc main_arg2)) := by
  have e : (V m c main_v3 : S4096x512.Idx → EReal)
      = (truncf .bf16 (Host.dotGeneral (φ₁ := .f32) (φ₂ := .f32) Block.D0 none (m ((c : Thread nD τ).loc main_arg1)) (m ((c : Thread nD τ).loc main_arg2))) bitsLt_bf16_f32 : FVec Ideal S4096x512 .bf16) := by
    show StableHlo.after hostOps0 (fun b => m (c, b)) (Proc.devRef .tc main_v3) = _
    after_results <;> rfl
  rw [e]
  exact Block.foldedWeight_eq _ _

theorem V_v4 (c : Dev nD) : (V m c main_v4 : S512x4096.Idx → EReal) = (m ((c : Thread nD τ).loc main_arg3) : S512x4096.Idx → EReal) := by
  have e : (V m c main_v4 : S512x4096.Idx → EReal)
      = (truncf .bf16 (m ((c : Thread nD τ).loc main_arg3)) bitsLt_bf16_f32 : FVec Ideal S512x4096 .bf16) := by
    show StableHlo.after hostOps0 (fun b => m (c, b)) (Proc.devRef .tc main_v4) = _
    after_results <;> rfl
  rw [e]
  rfl

/-! ## From the 32 blocks to the array -/

/-- The printed index maps over the grid: the input and the result move one block of rows per point, the three
    other windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block of rows is some point's. -/
theorem idx_onto : ∀ q : Fin 32, ∃ t : Fin cfg0.N, win0_4.index t = ![q.val, 0] :=
  (by decide +kernel : ∀ q : Fin 32, ∃ t : Fin grid0.N, win0_4.index t = ![q.val, 0])

/-- What point t writes back is block t of the whole-array function. -/
theorem flushed_eq (c : Dev nD) (t : Fin cfg0.N) :
    (dats m 0 c).flushed 4 t = ((cfg0.win 4).blk t).view.read (Elt Ideal)
      (Block.outArr (V m c main_v0) (V m c main_v3) (V m c main_v4) (V m c main_v1)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S4096x512) hz, View.ld_unit_zero (S := S512x4096) hz,
    View.ld_unit_zero (S := S1x4096) hz]
  obtain ⟨e00, e01, e10, e11, e20, e21, e30, e31, e40, e41⟩ := idx_facts t
  funext y
  show k0_pay1 (F := Ideal) (iblk m c 0 t) (iblk m c 1 t) (iblk m c 2 t) (iblk m c 3 t) y
    = Block.outArr (V m c main_v0) (V m c main_v3) (V m c main_v4) (V m c main_v1) (((cfg0.win 4).blk t).view.emb y)
  refine Block.block_eq (V m c main_v0) (V m c main_v3) (V m c main_v4) (V m c main_v1)
    (iblk m c 0 t) (iblk m c 1 t) (iblk m c 2 t) (iblk m c 3 t) y (((cfg0.win 4).blk t).view.emb y) ?_ ?_ ?_ ?_ ?_
  · show win0_4.index t (1 : Fin 2) * 4096 + 1 * (y 1).val = (y 1).val
    omega
  · intro q
    show V m c main_v0 (((cfg0.win 0).blk t).view.emb (ix2 (y 0) q)) = V m c main_v0 (ix2 (((cfg0.win 4).blk t).view.emb y 0) q)
    refine congrArg (V m c main_v0) (funext fun a => Fin.ext ?_)
    match a with
    | ⟨0, _⟩ => show win0_0.index t (0 : Fin 2) * 256 + 1 * (y 0).val = win0_4.index t (0 : Fin 2) * 256 + 1 * (y 0).val; omega
    | ⟨1, _⟩ => show win0_0.index t (1 : Fin 2) * 4096 + 1 * q.val = q.val; omega
  · intro z
    show V m c main_v3 (((cfg0.win 1).blk t).view.emb z) = V m c main_v3 z
    refine congrArg (V m c main_v3) (funext fun a => Fin.ext ?_)
    match a with
    | ⟨0, _⟩ => show win0_1.index t (0 : Fin 2) * 4096 + 1 * (z 0).val = (z 0).val; omega
    | ⟨1, _⟩ => show win0_1.index t (1 : Fin 2) * 512 + 1 * (z 1).val = (z 1).val; omega
  · intro z
    show V m c main_v4 (((cfg0.win 2).blk t).view.emb z) = V m c main_v4 z
    refine congrArg (V m c main_v4) (funext fun a => Fin.ext ?_)
    match a with
    | ⟨0, _⟩ => show win0_2.index t (0 : Fin 2) * 512 + 1 * (z 0).val = (z 0).val; omega
    | ⟨1, _⟩ => show win0_2.index t (1 : Fin 2) * 4096 + 1 * (z 1).val = (z 1).val; omega
  · intro z
    show V m c main_v1 (((cfg0.win 3).blk t).view.emb z) = V m c main_v1 z
    refine congrArg (V m c main_v1) (funext fun a => Fin.ext ?_)
    match a with
    | ⟨0, _⟩ => show win0_3.index t (0 : Fin 2) * 1 + 1 * (z 0).val = (z 0).val; omega
    | ⟨1, _⟩ => show win0_3.index t (1 : Fin 2) * 4096 + 1 * (z 1).val = (z 1).val; omega

/-- An index of the result array is in point t's block iff each coordinate is in the block's range on its axis. -/
theorem mem_blk (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v5).slice (win0_4.rect t)).set ↔ _
  rw [View.set_slice_whole, Rect.mem_set_unit]
  exact Iff.rfl

/-- Row r lies in the block of point r / 256. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The [8192, 4096] array after the launch. -/
theorem final (c : Dev nD) : (dats m 0 c).arrAt 4 cfg0.N
    = Block.outArr (V m c main_v0) (V m c main_v3) (V m c main_v4) (V m c main_v1) :=
  (dats m 0 c).arrAt_eq_of_cover 4 _ (fun t _ => flushed_eq m c t) cover

/-! ## The result after the host's last reshape -/

/-- The [8192, 4096] array in terms of the arguments: (X · (t0 · t1)) · t2 plus the bias entry of the column. -/
theorem outArr_eq (c : Dev nD) : Block.outArr (V m c main_v0) (V m c main_v3) (V m c main_v4) (V m c main_v1)
    = fun r => matProd (matProd (Spec.flat (m ((c : Thread nD τ).loc main_arg0)))
          (matProd (m ((c : Thread nD τ).loc main_arg1)) (m ((c : Thread nD τ).loc main_arg2))))
        (m ((c : Thread nD τ).loc main_arg3)) r + (m ((c : Thread nD τ).loc main_arg4) : S4096.Idx → EReal) (ix1 (r 1)) := by
  funext r
  obtain ⟨p, j, rfl⟩ : ∃ (p : Fin 8192) (j : Fin 4096), r = ix2 p j := ⟨r 0, r 1, eq_ix2 r⟩
  unfold Block.outArr
  rw [affine_ix2]
  unfold affineAt
  rw [V_v0 m c, V_v3 m c, V_v4 m c, V_v1 m c]
  rfl

theorem result (c : Dev nD) : Pipeline.afterTail₀ cfgs (dats m) 0 (V0 m) [hostOps1] c main_v6
    = Spec.folded (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v6) = _
  after_results
  refine funext fun (i : S4x2048x4096.Idx) => ?_
  show shapeCast S4x2048x4096 (Pipeline.withArrays (cfgs 0).spec c (V0 m c) (fun w => (dats m 0 c).arrAt w (cfgs 0).N)
    (Proc.devRef .tc main_v5)) shapeCasts_S8192x4096_S4x2048x4096 i = _
  rw [Layout.shapeCast_unflat]
  have e : Pipeline.withArrays (cfgs 0).spec c (V0 m c) (fun w => (dats m 0 c).arrAt w (cfgs 0).N) (Proc.devRef .tc main_v5)
      = Block.outArr (V m c main_v0) (V m c main_v3) (V m c main_v4) (V m c main_v1) :=
    (Pipeline.withArrays_arr spec0 launch0.win.arr_inj c _ _ 4).trans (final m c)
  rw [e, outArr_eq]
  rfl

/-! ## The run -/

/-- Every weakly fair execution of the kernel's program terminates with the result at `Spec.folded` of the arguments
    and the arguments unchanged: the generated frame run, its post read at the result and at the arguments. -/
theorem run : θ_run defs (onTc (τ := τ) (main (F := Ideal))) ⟨m, fun _ => 0, ρ⟩ fun r => ∀ c : Dev nD,
      r.2.mem ((c.tc : Thread nD τ).loc main_v6)
        = Spec.folded (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v6 (Pipeline.mem_restRefs_of main_v6 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.Finite.lean ====
/-
  The precondition read back: every entry of the first three arguments is a real number.

  The precondition is the conjunction, over the five arguments, of "every entry's absolute value is strictly below
  +∞". Each conjunct is a reduction by `and` over all axes of an elementwise comparison, so where it holds the
  comparison holds at every index; the absolute value is max v (-v) and the bound is the bit pattern of +∞; an extended
  real whose absolute value is below +∞ is a real.
-/
import proofs.«169560_j33200097198471_2_alg».proof.Proof.Gen.Pre_finite_inputs
import proofs.«169560_j33200097198471_2_alg».proof.Proof.LibMatChain
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Cert.LibMatChain

instance : Subsingleton S_.Idx := ⟨fun a b => funext fun d => d.elim0⟩

/-- The bit pattern the precondition compares against is +∞. -/
theorem ofBits_inf : Ideal.ofBits .f32 0x7F800000#32 = ⊤ := by simp [Ideal.ofBits, Ideal.ieee]

/-- An entry that passes the precondition's test is a real. -/
theorem isReal_of_test {v : EReal} (h : Ideal.cmp .olt (max v (-v)) (Ideal.ofBits .f32 0x7F800000#32) = 1#1) : IsReal v := by
  rw [ofBits_inf] at h
  refine isReal_of_abs_lt_top ?_
  by_contra hn
  simp [Ideal.cmp, hn] at h

/-- Where the precondition holds, the input and the two first weights hold reals only. -/
theorem real_of_pre (a0 : FVec Ideal S4x2048x4096 .f32) (a1 : FVec Ideal S4096x512 .f32) (a2 : FVec Ideal S512x512 .f32)
    (a3 : FVec Ideal S512x4096 .f32) (a4 : FVec Ideal S4096 .f32)
    (h : fn (F := Ideal) a0 a1 a2 a3 a4 = fun _ => 1#1) :
    (∀ i, IsReal (a0 i)) ∧ (∀ i, IsReal (a1 i)) ∧ (∀ i, IsReal (a2 i)) := by
  have h' := congrFun h ValueIdx.ix0
  dsimp only [fn, fn_part1] at h'
  obtain ⟨h0123, -⟩ := IntOp.andi_eq_one.1 h'
  obtain ⟨h012, -⟩ := IntOp.andi_eq_one.1 h0123
  obtain ⟨h01, h2⟩ := IntOp.andi_eq_one.1 h012
  obtain ⟨h0, h1⟩ := IntOp.andi_eq_one.1 h01
  refine ⟨fun i => isReal_of_test ?_, fun i => isReal_of_test ?_, fun i => isReal_of_test ?_⟩
  · exact Host.reduce_andi_all _ _ _ _ _ h0 i
  · exact Host.reduce_andi_all _ _ _ _ _ h1 i
  · exact Host.reduce_andi_all _ _ _ _ _ h2 i

end Cert.Pre_finite_inputs.Finite

end
-- ==== Proof.lean ====
/-
  A chain of three matrix products with a bias, against the same chain with the two first weights multiplied together
  beforehand.

  The reference flattens the input x [4, 2048, 4096] to the matrix X [8192, 4096] and returns ((X · t0) · t1) · t2,
  viewed again as [4, 2048, 4096], plus the bias along the last axis. The kernel's host code first forms t0 · t1, and
  each of its 32 grid points then computes (x_blk · (t0 · t1)) · t2 + bias for 256 rows of X; the changes of float
  format on the way are the identity on the extended reals, and a matrix-unit product into a zero accumulator is the
  plain sum of products.

  So the claim is the associativity X · (t0 · t1) = (X · t0) · t1. On the extended reals a product does not
  distribute over a sum when infinities occur, so this is where the precondition is used: every entry of x, t0 and
  t1 is finite, hence a real, and over the reals the two double sums are one. The last weight and the bias enter both
  sides alike and nothing is asked of them.

  The pieces: `Spec` states the two groupings and their agreement on real inputs (`LibMatChain` has the law);
  `RefValue` reads the reference's run as the left-to-right chain; `KernelBlock` reads one stored block, `KernelValue`
  assembles the 32 blocks and the host code around the launch into the folded grouping; `Finite` reads the
  precondition. The three frames are the generated ones, and the idealization rewrote nothing.
-/
import proofs.«169560_j33200097198471_2_alg».proof.Defs
import proofs.«169560_j33200097198471_2_alg».proof.Proof.Gen.Kernel
import proofs.«169560_j33200097198471_2_alg».proof.Proof.Gen.Kernel.Skeleton
import proofs.«169560_j33200097198471_2_alg».proof.Proof.Gen.Kernel.Launch
import proofs.«169560_j33200097198471_2_alg».proof.Proof.Gen.Kernel.Points
import proofs.«169560_j33200097198471_2_alg».proof.Proof.Gen.Kernel.Frame
import proofs.«169560_j33200097198471_2_alg».proof.Proof.Gen.KernelIdeal
import proofs.«169560_j33200097198471_2_alg».proof.Proof.Gen.KernelIdeal.Skeleton
import proofs.«169560_j33200097198471_2_alg».proof.Proof.Gen.KernelIdeal.Launch
import proofs.«169560_j33200097198471_2_alg».proof.Proof.Gen.KernelIdeal.Points
import proofs.«169560_j33200097198471_2_alg».proof.Proof.Gen.KernelIdeal.Frame
import proofs.«169560_j33200097198471_2_alg».proof.Proof.Gen.ReferenceIdeal
import proofs.«169560_j33200097198471_2_alg».proof.Proof.Gen.Pre_finite_inputs
import proofs.«169560_j33200097198471_2_alg».proof.Proof.Gen.ReferenceIdeal.Run
import proofs.«169560_j33200097198471_2_alg».proof.Proof.Gen.ReferenceIdeal.Read
import proofs.«169560_j33200097198471_2_alg».proof.Proof.Spec
import proofs.«169560_j33200097198471_2_alg».proof.Proof.RefValue
import proofs.«169560_j33200097198471_2_alg».proof.Proof.KernelValue
import proofs.«169560_j33200097198471_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the left-to-right chain of the arguments: the reference by its run, the kernel at the folded
    grouping, which is the chain because the precondition makes x, t0 and t1 real. -/
theorem algebraic : Cert.algebraic_KernelIdeal_ReferenceIdeal := by
  intro m ρ m' ρ' hpre hagree
  refine ⟨fun c => Cert.Spec.chained (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ?_) (Cert.KernelIdeal.KValue.run m ρ)
    obtain ⟨hx, h0, h1⟩ := Cert.Pre_finite_inputs.Finite.real_of_pre _ _ _ _ _ (hpre c)
    exact ⟨(h c).1.trans (Cert.Spec.folded_eq_chained _ _ _ _ _ hx h0 h1), (h c).2⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
